-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x256 : Shape := ⟨4, ![8, 64, 128, 256]⟩
abbrev S_ : Shape := ⟨0, ![]⟩

class Facts : Prop where
  bcast_S_S8x64x128x256 : S_.BroadcastsInDim S8x64x128x256 (![] : Fin 0 → Fin S8x64x128x256.rank)
  reducesTo_S8x64x128x256_S_d0_1_2_3 : S8x64x128x256.ReducesTo [0, 1, 2, 3] S_
  h_S_ : 0 < S_.numel

variable [Facts]

def fn {F : FTy → Type} [FloatOps F] (main_arg0 : FVec F S8x64x128x256 .f32) : IVec S_ 1 :=
  let main_v0 : FVec F S8x64x128x256 .f32 := Host.absf main_arg0
  let main_cst : FVec F S_ .f32 := constant S_ .f32 0x7F800000#32
  let main_v1 : FVec F S8x64x128x256 .f32 := broadcastInDim S8x64x128x256 ![] bcast_S_S8x64x128x256 main_cst
  let main_v2 : IVec S8x64x128x256 1 := cmpf .olt main_v0 main_v1
  let main_c : IVec S_ 1 := constantI S_ 1 1#1
  let main_v3 : IVec S_ 1 := (fun x v => Host.reduce IntOp.andi x v reducesTo_S8x64x128x256_S_d0_1_2_3 h_S_) main_v2 main_c
  main_v3
-- ==== Kernel.lean ====
abbrev S8x64x128x256 : Shape := ⟨4, ![8, 64, 128, 256]⟩
abbrev S1x64x128x128 : Shape := ⟨4, ![1, 64, 128, 128]⟩
abbrev S64x128x128 : Shape := ⟨3, ![64, 128, 128]⟩
abbrev S128x128x64 : Shape := ⟨3, ![128, 128, 64]⟩
abbrev S128x128x128 : Shape := ⟨3, ![128, 128, 128]⟩
abbrev S128x128 : Shape := ⟨2, ![128, 128]⟩
abbrev S128x1x128 : Shape := ⟨3, ![128, 1, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x64x128x256, .f32⟩
  | .hbm, ⟨1, _⟩ => ⟨S8x64x128x256, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x128x128, .f32⟩
  | .local _ .vmem, ⟨3, _⟩ => ⟨S1x64x128x128, .f32⟩
  | _, _ => ⟨S8x64x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  transposes_S64x128x128_p2_1_0_S128x128x64 : S64x128x128.Transposes [2, 1, 0] S128x128x64
  bitsLt_bf16_f32 : FTy.bits .bf16 < FTy.bits .f32
  reduces_S128x128x128_S128x128 : S128x128x128.Reduces [1] S128x128
  shapeCasts_S128x128_S128x1x128 : S128x128.ShapeCasts S128x1x128
  broadcasts_S128x1x128_S128x128x128 : S128x1x128.Broadcasts S128x128x128
  transposes_S128x128x64_p2_1_0_S64x128x128 : S128x128x64.Transposes [2, 1, 0] S64x128x128
  shapeCasts_S64x128x128_S1x64x128x128 : S64x128x128.ShapeCasts S1x64x128x128
  dot_S128x128x64_S128x128x64_S128x128x128_2_2_1_1_0_0_wf : DotDims.WF S128x128x64 S128x128x64 S128x128x128 [2] [2] [1] [1] [0] [0]
  dot_S128x128x128_S128x128x64_S128x128x64_2_1_1_2_0_0_wf : DotDims.WF S128x128x128 S128x128x64 S128x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S8x64x128x256.size a
  hwx0_0 : ∀ i : grid0.Coords, EltTy.bits .f32 = 32 ∨ (Rect.block (s := S8x64x128x256) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S8x64x128x256.size a
  hwx0_1 : ∀ i : grid0.Coords, EltTy.bits .f32 = 32 ∨ (Rect.block (s := S8x64x128x256) S1x64x128x128.size (cc0_transform_1 i) (hinb0_1 i)).WholeWords (EltTy.packing .f32)

variable [Facts₀]

def dot_S128x128x64_S128x128x64_S128x128x128_2_2_1_1_0_0 : DotDims S128x128x64 S128x128x64 S128x128x128 where
  lhsContracting := [2]
  rhsContracting := [2]
  lhsNonContracting := [1]
  rhsNonContracting := [1]
  lhsBatch := [0]
  rhsBatch := [0]
  wf := dot_S128x128x64_S128x128x64_S128x128x128_2_2_1_1_0_0_wf
def dot_S128x128x128_S128x128x64_S128x128x64_2_1_1_2_0_0 : DotDims S128x128x128 S128x128x64 S128x128x64 where
  lhsContracting := [2]
  rhsContracting := [1]
  lhsNonContracting := [1]
  rhsNonContracting := [2]
  lhsBatch := [0]
  rhsBatch := [0]
  wf := dot_S128x128x128_S128x128x64_S128x128x64_2_1_1_2_0_0_wf

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x128x256 : Shape := ⟨4, ![8, 64, 128, 256]⟩
abbrev S8x256x128x64 : Shape := ⟨4, ![8, 256, 128, 64]⟩
abbrev S8x256x128x128 : Shape := ⟨4, ![8, 256, 128, 128]⟩
abbrev S_ : Shape := ⟨0, ![]⟩
abbrev S8x256x128 : Shape := ⟨3, ![8, 256, 128]⟩
abbrev S8x256x1x128 : Shape := ⟨4, ![8, 256, 1, 128]⟩

abbrev nBuf : Space → Nat
  | .hbm => 19
  | .vmem => 0
  | .smem => 0
  | _ => 0

abbrev bufTy : (tb : Table) → Fin (tcTables nBuf tb) → BufTy
  | .hbm, ⟨0, _⟩ => ⟨S8x64x128x256, .f32⟩
  | .hbm, ⟨1, _⟩ => ⟨S8x256x128x64, .f32⟩
  | .hbm, ⟨2, _⟩ => ⟨S8x256x128x128, .f32⟩
  | .hbm, ⟨3, _⟩ => ⟨S_, .f32⟩
  | .hbm, ⟨4, _⟩ => ⟨S8x256x128, .f32⟩
  | .hbm, ⟨5, _⟩ => ⟨S_, .f32⟩
  | .hbm, ⟨6, _⟩ => ⟨S8x256x128, .f32⟩
  | .hbm, ⟨7, _⟩ => ⟨S8x256x128, .f32⟩
  | .hbm, ⟨8, _⟩ => ⟨S8x256x1x128, .f32⟩
  | .hbm, ⟨9, _⟩ => ⟨S8x256x128x128, .f32⟩
  | .hbm, ⟨10, _⟩ => ⟨S8x256x128x128, .f32⟩
  | .hbm, ⟨11, _⟩ => ⟨S8x256x128x128, .f32⟩
  | .hbm, ⟨12, _⟩ => ⟨S_, .f32⟩
  | .hbm, ⟨13, _⟩ => ⟨S8x256x128, .f32⟩
  | .hbm, ⟨14, _⟩ => ⟨S8x256x1x128, .f32⟩
  | .hbm, ⟨15, _⟩ => ⟨S8x256x128x128, .f32⟩
  | .hbm, ⟨16, _⟩ => ⟨S8x256x128x128, .f32⟩
  | .hbm, ⟨17, _⟩ => ⟨S8x256x128x64, .f32⟩
  | .hbm, ⟨18, _⟩ => ⟨S8x64x128x256, .f32⟩
  | _, _ => ⟨S8x64x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  transposes_S8x64x128x256_S8x256x128x64_0_3_2_1 : S8x64x128x256.Transposes [0, 3, 2, 1] S8x256x128x64
  reducesTo_S8x256x128x128_S8x256x128_d2 : S8x256x128x128.ReducesTo [2] S8x256x128
  h_S_ : 0 < S_.numel
  bcast_S_S8x256x128 : S_.BroadcastsInDim S8x256x128 (![] : Fin 0 → Fin S8x256x128.rank)
  bcast_S8x256x128_S8x256x1x128_0_1_3 : S8x256x128.BroadcastsInDim S8x256x1x128 (![0, 1, 3] : Fin 3 → Fin S8x256x1x128.rank)
  bcast_S8x256x1x128_S8x256x128x128_0_1_2_3 : S8x256x1x128.BroadcastsInDim S8x256x128x128 (![0, 1, 2, 3] : Fin 4 → Fin S8x256x128x128.rank)
  transposes_S8x256x128x64_S8x64x128x256_0_3_2_1 : S8x256x128x64.Transposes [0, 3, 2, 1] S8x64x128x256
  dot_S8x256x128x64_S8x256x128x64_S8x256x128x128_3_3_2_2_01_01_wf : DotDims.WF S8x256x128x64 S8x256x128x64 S8x256x128x128 [3] [3] [2] [2] [0, 1] [0, 1]
  dot_S8x256x128x128_S8x256x128x64_S8x256x128x64_3_2_2_3_01_01_wf : DotDims.WF S8x256x128x128 S8x256x128x64 S8x256x128x64 [3] [2] [2] [3] [0, 1] [0, 1]

variable [Facts₀]

def dot_S8x256x128x64_S8x256x128x64_S8x256x128x128_3_3_2_2_01_01 : DotDims S8x256x128x64 S8x256x128x64 S8x256x128x128 where
  lhsContracting := [3]
  rhsContracting := [3]
  lhsNonContracting := [2]
  rhsNonContracting := [2]
  lhsBatch := [0, 1]
  rhsBatch := [0, 1]
  wf := dot_S8x256x128x64_S8x256x128x64_S8x256x128x128_3_3_2_2_01_01_wf
def dot_S8x256x128x128_S8x256x128x64_S8x256x128x64_3_2_2_3_01_01 : DotDims S8x256x128x128 S8x256x128x64 S8x256x128x64 where
  lhsContracting := [3]
  rhsContracting := [2]
  lhsNonContracting := [2]
  rhsNonContracting := [3]
  lhsBatch := [0, 1]
  rhsBatch := [0, 1]
  wf := dot_S8x256x128x128_S8x256x128x64_S8x256x128x64_3_2_2_3_01_01_wf

class Facts : Prop extends Facts₀ where

variable [Facts]
-- ==== Proof.ColumnAttention.lean ====
/-
  Attention along the height of one column.

  The input x has four axes: batch b, feature c, height h, width w.  Fixing (b, w) leaves a column, a table of
  64 features at 128 heights.  Every column is treated alone:

    score(h, k)  = Σ_c x(c, h) · x(c, k)                    the Gram matrix of the heights,
    peak(k)      = max(−∞, max_h score(h, k))               the largest score of key k,
    weight(h, k) = exp(score(h, k) − peak(k)),
    mass(k)      = Σ_h weight(h, k),
    attn(c, h)   = Σ_k (weight(h, k) / mass(k)) · x(c, k).

  The softmax normalises over the QUERY height h for each key k.  The result array holds attn of the column
  (b, w) at (c, h).  All arithmetic is that of the extended reals.
-/
import Idealize.ShloMosaic.Lib.ValueIdx
import Idealize.ShloMosaic.PureOps.Ideal

noncomputable section

namespace Cert.ColumnAttention

open Idealize.ShloMosaic Idealize.ShloMosaic.ValueIdx

/-- A column: the value of feature c at height h. -/
abbrev Col := Fin 64 → Fin 128 → EReal

/-- The float −∞, the value every maximum starts from. -/
abbrev negInf : EReal := Ideal.ofBits .f32 0xFF800000#32

/-- The score of query height h against key height k: the inner product of their feature vectors. -/
def score (x : Col) (h k : Fin 128) : EReal := ∑ c : Fin 64, x c h * x c k

/-- The largest score of key k over all query heights, starting from −∞. -/
def peak (x : Col) (k : Fin 128) : EReal :=
  max negInf ((Finset.univ : Finset (Fin 128)).fold max negInf fun h => score x h k)

/-- The unnormalised softmax weight. -/
def weight (x : Col) (h k : Fin 128) : EReal := Ideal.exp (score x h k - peak x k)

/-- The normaliser of key k: the sum of its weights over the query heights. -/
def mass (x : Col) (k : Fin 128) : EReal := ∑ h : Fin 128, weight x h k

/-- The attended feature c at height h. -/
def attn (x : Col) (c : Fin 64) (h : Fin 128) : EReal :=
  ∑ k : Fin 128, Ideal.div (weight x h k) (mass x k) * x c k

/-- The column (b, w) of a whole array. -/
def column (x : (⟨4, ![8, 64, 128, 256]⟩ : Shape).Idx → EReal) (b : Fin 8) (w : Fin 256) : Col :=
  fun c h => x (ix4 b c h w)

/-- The whole result: at (b, c, h, w), attention of the column (b, w) at (c, h). -/
def result (x : (⟨4, ![8, 64, 128, 256]⟩ : Shape).Idx → EReal) : (⟨4, ![8, 64, 128, 256]⟩ : Shape).Idx → EReal :=
  fun i => attn (column x (i 0) (i 3)) (i 1) (i 2)

theorem result_apply (x : (⟨4, ![8, 64, 128, 256]⟩ : Shape).Idx → EReal) (b : Fin 8) (c : Fin 64) (h : Fin 128)
    (w : Fin 256) : result x (ix4 b c h w) = attn (column x b w) c h := rfl

end Cert.ColumnAttention

end
-- ==== Proof.ReferenceColumns.lean ====
/-
  The reference program, stage by stage, is attention along the height of every column.

  The reference moves the feature axis last ([b, w, h, c]), forms the Gram matrix of the heights of every column,
  takes the maximum and the sum of exponentials over the QUERY height (the third axis of [b, w, h, k]), divides,
  multiplies by the column again and moves the axes back.  Read at coordinates, every stage is the matching
  quantity of the column (b, w).
-/
import proofs.«150434_j76020921139498_1_alg».proof.Proof.Gen.ReferenceIdeal.Read
import proofs.«150434_j76020921139498_1_alg».proof.Proof.ColumnAttention

noncomputable section

namespace Cert.ReferenceColumns

open Cert.ReferenceIdeal Cert.ReferenceIdeal.Gen Cert.ReferenceIdeal.Read Idealize.ShloMosaic
open Idealize.ShloMosaic.ValueIdx Cert.ColumnAttention

/-- Two rank-4 indices with the same four coordinates are equal. -/
local macro "coords4" : tactic =>
  `(tactic| (funext a; apply Fin.ext; match a with | ⟨0, _⟩ => rfl | ⟨1, _⟩ => rfl | ⟨2, _⟩ => rfl | ⟨3, _⟩ => rfl))
/-- Two rank-3 indices with the same three coordinates are equal. -/
local macro "coords3" : tactic =>
  `(tactic| (funext a; apply Fin.ext; match a with | ⟨0, _⟩ => rfl | ⟨1, _⟩ => rfl | ⟨2, _⟩ => rfl))

variable (x : FVec Ideal S8x64x128x256 .f32)

/-- The transposed input at (b, w, h, c) is the column (b, w) at (c, h). -/
theorem transposed_apply (b : Fin 8) (w : Fin 256) (h : Fin 128) (c : Fin 64) :
    val_main_v0 (F := Ideal) x (ix4 b w h c) = column x b w c h := by
  rw [val_main_v0_apply]
  exact congrArg x (by coords4)

/-- The first product at (b, w, h, k) is the score of heights h and k of the column (b, w). -/
theorem scores_apply (b : Fin 8) (w : Fin 256) (h k : Fin 128) :
    val_main_v1 (F := Ideal) x (ix4 b w h k) = score (column x b w) h k := by
  rw [val_main_v1_apply]
  unfold score
  refine Finset.sum_congr rfl fun c _ => ?_
  have el : lidx_main_v1 (ix4 b w h k) c = ix4 b w h c := by coords4
  have er : ridx_main_v1 (ix4 b w h k) c = ix4 b w k c := by coords4
  rw [el, er, transposed_apply, transposed_apply]

/-- The maximum over the query height, at (b, w, k): the running maximum from −∞ of the scores against key k. -/
theorem colmax_apply (b : Fin 8) (w : Fin 256) (k : Fin 128) :
    val_main_v2 (F := Ideal) x (ix3 b w k)
      = (Finset.univ : Finset (Fin 128)).fold max negInf fun h => score (column x b w) h k := by
  unfold val_main_v2
  have hr : S8x256x128x128.Reduces [2] S8x256x128 := by decide
  rw [Host.reduce_eq_fold_single FloatOps.maximumf _ _ reducesTo_S8x256x128x128_S8x256x128_d2 hr h_S_]
  have e : ∀ h : Fin 128, (val_main_v1 (F := Ideal) x ∘ hr.lift (ix3 b w k)) h = score (column x b w) h k := fun h => by
    show val_main_v1 (F := Ideal) x (hr.lift (ix3 b w k) h) = _
    have e' : hr.lift (ix3 b w k) h = ix4 b w h k := by coords4
    rw [e', scores_apply]
  exact congrArg (fun f : Fin 128 → EReal => (Finset.univ : Finset (Fin 128)).fold max negInf f) (funext e)

/-- Clamped below by −∞ it is the peak of key k. -/
theorem peak_apply (b : Fin 8) (w : Fin 256) (k : Fin 128) :
    val_main_v4 (F := Ideal) x (ix3 b w k) = peak (column x b w) k := by
  rw [val_main_v4_apply, val_main_v3_apply, val_main_cst_0_apply, colmax_apply]
  rfl

/-- The peak broadcast back over the query height. -/
theorem peak_bcast_apply (b : Fin 8) (w : Fin 256) (h k : Fin 128) :
    val_main_v6 (F := Ideal) x (ix4 b w h k) = peak (column x b w) k := by
  rw [val_main_v6_apply, val_main_v5_apply]
  have e : idx_main_v5 (idx_main_v6 (ix4 b w h k)) = ix3 b w k := by coords3
  rw [e, peak_apply]

/-- The exponential of the shifted score is the weight. -/
theorem weight_apply (b : Fin 8) (w : Fin 256) (h k : Fin 128) :
    val_main_v8 (F := Ideal) x (ix4 b w h k) = weight (column x b w) h k := by
  rw [val_main_v8_apply, val_main_v7_apply, scores_apply, peak_bcast_apply]
  rfl

/-- The sum from zero of the weights over the query height is the mass of key k. -/
theorem mass_apply (b : Fin 8) (w : Fin 256) (k : Fin 128) :
    val_main_v9 (F := Ideal) x (ix3 b w k) = mass (column x b w) k := by
  rw [val_main_v9_apply, val_main_cst_1_apply]
  show Ideal.ofBits .f32 0x00000000#32 + _ = _
  rw [Ideal.ofBits_zero_f32, zero_add]
  unfold mass
  refine Finset.sum_congr rfl fun h _ => ?_
  have e : idx_main_v9 (ix3 b w k) h = ix4 b w h k := by coords4
  rw [e, weight_apply]

/-- The mass broadcast back over the query height. -/
theorem mass_bcast_apply (b : Fin 8) (w : Fin 256) (h k : Fin 128) :
    val_main_v11 (F := Ideal) x (ix4 b w h k) = mass (column x b w) k := by
  rw [val_main_v11_apply, val_main_v10_apply]
  have e : idx_main_v10 (idx_main_v11 (ix4 b w h k)) = ix3 b w k := by coords3
  rw [e, mass_apply]

/-- The normalised weight. -/
theorem share_apply (b : Fin 8) (w : Fin 256) (h k : Fin 128) :
    val_main_v12 (F := Ideal) x (ix4 b w h k)
      = Ideal.div (weight (column x b w) h k) (mass (column x b w) k) := by
  rw [val_main_v12_apply, weight_apply, mass_bcast_apply]
  rfl

/-- The second product at (b, w, h, c) is the attended feature c at height h of the column (b, w). -/
theorem attended_apply (b : Fin 8) (w : Fin 256) (h : Fin 128) (c : Fin 64) :
    val_main_v13 (F := Ideal) x (ix4 b w h c) = attn (column x b w) c h := by
  rw [val_main_v13_apply]
  unfold attn
  refine Finset.sum_congr rfl fun k _ => ?_
  have el : lidx_main_v13 (ix4 b w h c) k = ix4 b w h k := by coords4
  have er : ridx_main_v13 (ix4 b w h c) k = ix4 b w k c := by coords4
  rw [el, er, share_apply, transposed_apply]

/-- With the axes moved back, the reference's last stage is the result array. -/
theorem reference_eq_result : val_main_v14 (F := Ideal) x = result x := by
  funext i
  obtain ⟨b, c, h, w, rfl⟩ : ∃ (b : Fin 8) (c : Fin 64) (h : Fin 128) (w : Fin 256), i = ix4 b c h w :=
    ⟨i 0, i 1, i 2, i 3, eq_ix4 i⟩
  rw [val_main_v14_apply, result_apply]
  have e : idx_main_v14 (ix4 b c h w) = ix4 b w h c := by coords4
  rw [e, attended_apply]

end Cert.ReferenceColumns

end
-- ==== Proof.LibBatchLayout.lean ====
/-
  Blocks with a leading batch axis, read at coordinates, at the extended reals.

  * A matrix [a, b] kept as [a, b, 1] and broadcast along c lanes reads, at (i, j, k), the matrix at (i, j); kept as
    [a, 1, c] (a matrix [a, c]) and broadcast along b rows it reads, at (i, j, k), the matrix at (i, k).
  * A reduction of a block [a, b, c] along its last axis, read at (i, j): by the sum from zero it is the sum over k of the
    block at (i, j, k); by the maximum from −∞ it is the supremum over k of the block at (i, j, k).
  * The supremum of a family of real numbers, taken in the extended reals, is the real supremum; likewise a finite sum.
  * A stack of matrix products on the matrix unit, into the zero accumulator, read at (b, r, j): with both operands
    contracted on their last axis, the sum over d of A(b, r, d) · C(b, j, d); with the right operand contracted on its
    middle axis, the sum over j of A(b, r, j) · C(b, j, d).
  * The logit (2 s − x − y) / 13 of the attention programs: its two float constants, its reading on real numbers, and the
    score of a query row and a key row inside a pair of blocks.
-/
import Idealize.ShloMosaic.Lib.Pipeline.Value
import Idealize.ShloMosaic.Lib.ValueIdx
import Idealize.ShloMosaic.PureOps.Ideal.Laws

noncomputable section

namespace Cert.LibBatchLayout

open Idealize.ShloMosaic Idealize.ShloMosaic.ValueIdx

section Layout
variable {α : Type}

/-- A matrix [a, b] cast to [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- A matrix [a, c] cast to [a, 1, c] reads, at (i, u, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- A block [a, b, 1] broadcast along c lanes reads, at (i, j, k), the block at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A block [a, 1, c] broadcast along b rows reads, at (i, j, k), the block at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- So a matrix [a, b] kept as [a, b, 1] and broadcast along c lanes reads, at (i, j, k), the matrix at (i, j). -/
theorem keepLast_apply {a b c : ℕ} (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h₁) h₂ (ix3 i j k) = x (ix2 i j) :=
  (broadcastTo_ab1_abc_apply _ h₂ i j k).trans (shapeCast_ab_ab1_apply x h₁ i j 0)

/-- And a matrix [a, c] kept as [a, 1, c] and broadcast along b rows reads, at (i, j, k), the matrix at (i, k). -/
theorem keepMid_apply {a b c : ℕ} (x : (⟨2, ![a, c]⟩ : Shape).Idx → α)
    (h₁ : (⟨2, ![a, c]⟩ : Shape).ShapeCasts ⟨3, ![a, 1, c]⟩)
    (h₂ : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ x h₁) h₂ (ix3 i j k) = x (ix2 i k) :=
  (broadcastTo_a1c_abc_apply _ h₂ i j k).trans (shapeCast_ac_a1c_apply x h₁ i 0 k)

end Layout

section Reductions
variable {a b c : ℕ}

/-- Row (i, j) of a block [a, b, c] with the last coordinate k inserted is the index (i, j, k). -/
theorem lift_last (h : (⟨3, ![a, b, c]⟩ : Shape).Reduces [2] ⟨2, ![a, b]⟩) (i : Fin a) (j : Fin b) (k : Fin c) :
    h.lift (ix2 i j) k = ix3 i j k := by
  funext ax; apply Fin.ext
  match ax with
  | ⟨0, _⟩ => rfl
  | ⟨1, _⟩ => rfl
  | ⟨2, _⟩ => rfl

/-- The sum from zero of a block [a, b, c] along its last axis, at (i, j), is the sum over k of the block at (i, j, k). -/
theorem lastSum_apply (P : FVec Ideal ⟨3, ![a, b, c]⟩ .f32) (h : (⟨3, ![a, b, c]⟩ : Shape).Reduces [2] ⟨2, ![a, b]⟩)
    (hφ : FKind.Formats .f32) (hacc : (0x00000000#32 : BitVec 32) = FKind.add.neutral .f32 hφ) (i : Fin a) (j : Fin b) :
    multiReduction .add [2] ⟨2, ![a, b]⟩ P 0x00000000#32 h hφ hacc (ix2 i j) = ∑ k : Fin c, P (ix3 i j k) := by
  rw [Ideal.multiReduction_add_single]
  exact Finset.sum_congr rfl fun k _ => congrArg P (lift_last h i j k)

/-- The word 0xFF800000 read as a float is −∞. -/
theorem ofBits_neg_inf : Ideal.ofBits .f32 0xFF800000#32 = ⊥ := by simp [Ideal.ofBits, Ideal.ieee]

/-- A fold of the maximum from −∞ over a finite set is the set's supremum. -/
theorem fold_max_bot_eq_sup {ι : Type} (s : Finset ι) (f : ι → EReal) : s.fold max ⊥ f = s.sup f := by
  classical
  induction s using Finset.induction_on with
  | empty => simp
  | insert x s hx ih => rw [Finset.fold_insert hx, Finset.sup_insert, ih]

/-- The maximum from −∞ of a block [a, b, c] along its last axis, at (i, j), is the supremum over k of the block at
    (i, j, k). -/
theorem lastMax_apply (S : FVec Ideal ⟨3, ![a, b, c]⟩ .f32) (h : (⟨3, ![a, b, c]⟩ : Shape).Reduces [2] ⟨2, ![a, b]⟩)
    (hφ : FKind.Formats .f32) (hacc : (0xFF800000#32 : BitVec 32) = FKind.maximumf.neutral .f32 hφ) (i : Fin a) (j : Fin b) :
    multiReduction .maximumf [2] ⟨2, ![a, b]⟩ S 0xFF800000#32 h hφ hacc (ix2 i j)
      = (Finset.univ : Finset (Fin c)).sup fun k => S (ix3 i j k) := by
  rw [Ideal.multiReduction_maximumf_single]
  show (Finset.univ : Finset (Fin c)).fold max (Ideal.ofBits .f32 0xFF800000#32) (fun k : Fin c => S (h.lift (ix2 i j) k)) = _
  rw [ofBits_neg_inf]
  refine (fold_max_bot_eq_sup (Finset.univ : Finset (Fin c)) (fun k : Fin c => S (h.lift (ix2 i j) k))).trans ?_
  exact congrArg (fun f : Fin c → EReal => (Finset.univ : Finset (Fin c)).sup f)
    (funext fun k => congrArg S (lift_last h i j k))

end Reductions

section Reals

/-- The supremum of a nonempty finite family of real numbers, taken in the extended reals, is the real supremum. -/
theorem sup_coe_eq_coe_sup' {n : ℕ} [NeZero n] (g : Fin n → ℝ) :
    ((Finset.univ : Finset (Fin n)).sup fun k => ((g k : ℝ) : EReal))
      = ((Finset.univ.sup' Finset.univ_nonempty g : ℝ) : EReal) := by
  rw [← Finset.sup'_eq_sup Finset.univ_nonempty]
  exact (Finset.apply_sup'_eq_sup'_comp Finset.univ_nonempty (fun x : ℝ => (x : EReal))
    (fun x y => Monotone.map_sup EReal.coe_strictMono.monotone x y)).symm

/-- A finite sum of real numbers, taken in the extended reals, is the real sum. -/
theorem sum_coe {ι : Type} (s : Finset ι) (g : ι → ℝ) : (∑ k ∈ s, ((g k : ℝ) : EReal)) = ((∑ k ∈ s, g k : ℝ) : EReal) := by
  classical
  induction s using Finset.induction_on with
  | empty => simp
  | insert x s hx ih => rw [Finset.sum_insert hx, Finset.sum_insert hx, ih, EReal.coe_add]

end Reals

section Logit

/-- The word 0x40000000 read as a float is 2. -/
theorem ofBits_two : Ideal.ofBits .f32 0x40000000#32 = ((2 : ℝ) : EReal) := by
  simp [Ideal.ofBits, Ideal.ieee, -EReal.coe_mul]; norm_num

/-- The word 0x41500000 read as a float is 13. -/
theorem ofBits_thirteen : Ideal.ofBits .f32 0x41500000#32 = ((13 : ℝ) : EReal) := by
  simp [Ideal.ofBits, Ideal.ieee, -EReal.coe_mul]; norm_num

/-- The logit formula (2 s − x − y) / 13 on real numbers, computed in the extended reals, is the real logit. -/
theorem logit_coe (s x y : ℝ) :
    Ideal.div (((2 : ℝ) : EReal) * (s : EReal) - (x : EReal) - (y : EReal)) ((13 : ℝ) : EReal)
      = (((2 * s - x - y) / 13 : ℝ) : EReal) := by
  rw [Ideal.div_coe (by norm_num : (13 : ℝ) ≠ 0)]
  rw [← EReal.coe_mul, ← EReal.coe_sub, ← EReal.coe_sub, ← EReal.coe_mul]
  congr 1
  ring

/-- An exponential, or a logarithm, of a block reads elementwise. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

end Logit

section Matmul
variable {B M N K : ℕ} {φ₁ φ₂ : FTy}

private theorem mem00 : (0 : Fin 3) ∈ ([0] : List (Fin 3)) := by decide
private theorem nmem10 : ¬(1 : Fin 3) ∈ ([0] : List (Fin 3)) := by decide
private theorem nmem20 : ¬(2 : Fin 3) ∈ ([0] : List (Fin 3)) := by decide
private theorem mem11 : (1 : Fin 3) ∈ ([1] : List (Fin 3)) := by decide
private theorem mem22 : (2 : Fin 3) ∈ ([2] : List (Fin 3)) := by decide

/-- The dimension numbers of a stack of products A · Cᵀ: batch axis 0 on both sides, both operands contracted on their
    last axis. -/
abbrev dimsNT (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ := ⟨[2], [2], [1], [1], [0], [0], wf⟩

section NT
variable (wf : DotDims.WF ⟨3, ![B, M, K]⟩ ⟨3, ![B, N, K]⟩ ⟨3, ![B, M, N]⟩ [2] [2] [1] [1] [0] [0])
  (i : (⟨3, ![B, M, N]⟩ : Shape).Idx) (q : (dimsNT wf).contr.Idx)

private theorem nt_lhs0 : ((dimsNT wf).lhsIdx i q 0).val = (i 0).val := by
  unfold DotDims.lhsIdx
  rw [dif_pos (show (0 : Fin 3) ∈ (dimsNT wf).lhsBatch from mem00)]
  rfl
private theorem nt_lhs1 : ((dimsNT wf).lhsIdx i q 1).val = (i 1).val := by
  unfold DotDims.lhsIdx
  rw [dif_neg (show ¬(1 : Fin 3) ∈ (dimsNT wf).lhsBatch from nmem10),
    dif_pos (show (1 : Fin 3) ∈ (dimsNT wf).lhsNonContracting from mem11)]
  rfl
private theorem nt_lhs2 : ((dimsNT wf).lhsIdx i q 2).val = (q ⟨0, Nat.one_pos⟩).val :=
  (dimsNT wf).lhsIdx_val_of_single rfl i q
private theorem nt_rhs0 : ((dimsNT wf).rhsIdx i q 0).val = (i 0).val := by
  unfold DotDims.rhsIdx
  rw [dif_pos (show (0 : Fin 3) ∈ (dimsNT wf).rhsBatch from mem00)]
  rfl
private theorem nt_rhs1 : ((dimsNT wf).rhsIdx i q 1).val = (i 2).val := by
  unfold DotDims.rhsIdx
  rw [dif_neg (show ¬(1 : Fin 3) ∈ (dimsNT wf).rhsBatch from nmem10),
    dif_pos (show (1 : Fin 3) ∈ (dimsNT wf).rhsNonContracting from mem11)]
  rfl
private theorem nt_rhs2 : ((dimsNT wf).rhsIdx i q 2).val = (q ⟨0, Nat.one_pos⟩).val :=
  (dimsNT wf).rhsIdx_val_of_single rfl i q
end NT

/-- A stack of products of an M×K matrix with the transpose of an N×K matrix, into the zero accumulator, at (b, r, j):
    the sum over d of A(b, r, d) · C(b, j, d). -/
theorem matmul_batch_nt_apply (wf : DotDims.WF ⟨3, ![B, M, K]⟩ ⟨3, ![B, N, K]⟩ ⟨3, ![B, M, N]⟩ [2] [2] [1] [1] [0] [0])
    (prec : Option ContractPrecision) (A : FVec Ideal ⟨3, ![B, M, K]⟩ φ₁) (C : FVec Ideal ⟨3, ![B, N, K]⟩ φ₂)
    (b : Fin B) (r : Fin M) (j : Fin N) :
    matmul (dimsNT wf) prec A C (constant ⟨3, ![B, M, N]⟩ .f32 0x00000000#32) (ix3 b r j)
      = ∑ d : Fin K, A (ix3 b r d) * C (ix3 b j d) := by
  refine (Ideal.matmul_constant_zero_apply (dimsNT wf) prec A C (ix3 b r j)).trans ?_
  rw [← Equiv.sum_comp (contrEquiv1 (dimsNT wf) K rfl rfl).symm]
  refine Finset.sum_congr rfl fun d _ => ?_
  have hk := contrEquiv1_symm_val (dimsNT wf) K rfl rfl d
  have el : (dimsNT wf).lhsIdx (ix3 b r j) ((contrEquiv1 (dimsNT wf) K rfl rfl).symm d) = ix3 b r d :=
    funext fun a => Fin.ext (by
      match a with
      | ⟨0, _⟩ => exact nt_lhs0 wf _ _
      | ⟨1, _⟩ => exact nt_lhs1 wf _ _
      | ⟨2, _⟩ => exact (nt_lhs2 wf _ _).trans hk)
  have er : (dimsNT wf).rhsIdx (ix3 b r j) ((contrEquiv1 (dimsNT wf) K rfl rfl).symm d) = ix3 b j d :=
    funext fun a => Fin.ext (by
      match a with
      | ⟨0, _⟩ => exact nt_rhs0 wf _ _
      | ⟨1, _⟩ => exact nt_rhs1 wf _ _
      | ⟨2, _⟩ => exact (nt_rhs2 wf _ _).trans hk)
  rw [el, er]

/-- The dimension numbers of a stack of products A · C: batch axis 0 on both sides, the left operand contracted on its
    last axis and the right on its middle one. -/
abbrev dimsNN (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ := ⟨[2], [1], [1], [2], [0], [0], wf⟩

section NN
variable (wf : DotDims.WF ⟨3, ![B, M, K]⟩ ⟨3, ![B, K, N]⟩ ⟨3, ![B, M, N]⟩ [2] [1] [1] [2] [0] [0])
  (i : (⟨3, ![B, M, N]⟩ : Shape).Idx) (q : (dimsNN wf).contr.Idx)

private theorem nn_lhs0 : ((dimsNN wf).lhsIdx i q 0).val = (i 0).val := by
  unfold DotDims.lhsIdx
  rw [dif_pos (show (0 : Fin 3) ∈ (dimsNN wf).lhsBatch from mem00)]
  rfl
private theorem nn_lhs1 : ((dimsNN wf).lhsIdx i q 1).val = (i 1).val := by
  unfold DotDims.lhsIdx
  rw [dif_neg (show ¬(1 : Fin 3) ∈ (dimsNN wf).lhsBatch from nmem10),
    dif_pos (show (1 : Fin 3) ∈ (dimsNN wf).lhsNonContracting from mem11)]
  rfl
private theorem nn_lhs2 : ((dimsNN wf).lhsIdx i q 2).val = (q ⟨0, Nat.one_pos⟩).val :=
  (dimsNN wf).lhsIdx_val_of_single rfl i q
private theorem nn_rhs0 : ((dimsNN wf).rhsIdx i q 0).val = (i 0).val := by
  unfold DotDims.rhsIdx
  rw [dif_pos (show (0 : Fin 3) ∈ (dimsNN wf).rhsBatch from mem00)]
  rfl
private theorem nn_rhs1 : ((dimsNN wf).rhsIdx i q 1).val = (q ⟨0, Nat.one_pos⟩).val :=
  (dimsNN wf).rhsIdx_val_of_single rfl i q
private theorem nn_rhs2 : ((dimsNN wf).rhsIdx i q 2).val = (i 2).val := by
  unfold DotDims.rhsIdx
  rw [dif_neg (show ¬(2 : Fin 3) ∈ (dimsNN wf).rhsBatch from nmem20),
    dif_pos (show (2 : Fin 3) ∈ (dimsNN wf).rhsNonContracting from mem22)]
  rfl
end NN

/-- A stack of products of an M×K matrix with a K×N matrix, into the zero accumulator, at (b, r, d): the sum over j of
    A(b, r, j) · C(b, j, d). -/
theorem matmul_batch_nn_apply (wf : DotDims.WF ⟨3, ![B, M, K]⟩ ⟨3, ![B, K, N]⟩ ⟨3, ![B, M, N]⟩ [2] [1] [1] [2] [0] [0])
    (prec : Option ContractPrecision) (A : FVec Ideal ⟨3, ![B, M, K]⟩ φ₁) (C : FVec Ideal ⟨3, ![B, K, N]⟩ φ₂)
    (b : Fin B) (r : Fin M) (d : Fin N) :
    matmul (dimsNN wf) prec A C (constant ⟨3, ![B, M, N]⟩ .f32 0x00000000#32) (ix3 b r d)
      = ∑ j : Fin K, A (ix3 b r j) * C (ix3 b j d) := by
  refine (Ideal.matmul_constant_zero_apply (dimsNN wf) prec A C (ix3 b r d)).trans ?_
  rw [← Equiv.sum_comp (contrEquiv1 (dimsNN wf) K rfl rfl).symm]
  refine Finset.sum_congr rfl fun j _ => ?_
  have hk := contrEquiv1_symm_val (dimsNN wf) K rfl rfl j
  have el : (dimsNN wf).lhsIdx (ix3 b r d) ((contrEquiv1 (dimsNN wf) K rfl rfl).symm j) = ix3 b r j :=
    funext fun a => Fin.ext (by
      match a with
      | ⟨0, _⟩ => exact nn_lhs0 wf _ _
      | ⟨1, _⟩ => exact nn_lhs1 wf _ _
      | ⟨2, _⟩ => exact (nn_lhs2 wf _ _).trans hk)
  have er : (dimsNN wf).rhsIdx (ix3 b r d) ((contrEquiv1 (dimsNN wf) K rfl rfl).symm j) = ix3 b j d :=
    funext fun a => Fin.ext (by
      match a with
      | ⟨0, _⟩ => exact nn_rhs0 wf _ _
      | ⟨1, _⟩ => exact (nn_rhs1 wf _ _).trans hk
      | ⟨2, _⟩ => exact nn_rhs2 wf _ _)
  rw [el, er]

end Matmul

end Cert.LibBatchLayout

namespace Cert.Attn.Pay

/-- The logit of query row r and key row j of batch b inside blocks Q, K with the rows' squared norms QQ, KK:
    (2 · Σ_d Q(b, r, d) · K(b, j, d) − QQ(b, r) − KK(b, j)) / 13. -/
def scoreTile {B L M D : ℕ} (Q : Fin B → Fin L → Fin D → ℝ) (K : Fin B → Fin M → Fin D → ℝ) (QQ : Fin B → Fin L → ℝ)
    (KK : Fin B → Fin M → ℝ) (b : Fin B) (r : Fin L) (j : Fin M) : ℝ :=
  (2 * (∑ d, Q b r d * K b j d) - QQ b r - KK b j) / 13

end Cert.Attn.Pay

end
-- ==== Proof.LibMidAxis.lean ====
/-
  Reductions of a block [a, b, c] along its MIDDLE axis, read at coordinates, at the extended reals.

  * The index (i, k) of the reduced block [a, c] with the middle coordinate j inserted is (i, j, k).
  * The sum from zero along the middle axis, at (i, k), is the sum over j of the block at (i, j, k).
  * The maximum from −∞ along the middle axis, at (i, k), is the running maximum, started at −∞, over j of the
    block at (i, j, k).
-/
import Idealize.ShloMosaic.Lib.Pipeline.Value
import Idealize.ShloMosaic.Lib.ValueIdx
import Idealize.ShloMosaic.PureOps.Ideal.Laws

noncomputable section

namespace Cert.LibMidAxis

open Idealize.ShloMosaic Idealize.ShloMosaic.ValueIdx

variable {a b c : ℕ}

/-- Entry (i, k) of the reduced block with the middle coordinate j inserted is the index (i, j, k). -/
theorem lift_mid (h : (⟨3, ![a, b, c]⟩ : Shape).Reduces [1] ⟨2, ![a, c]⟩) (i : Fin a) (k : Fin c) (j : Fin b) :
    h.lift (ix2 i k) j = ix3 i j k := by
  funext ax; apply Fin.ext
  match ax with
  | ⟨0, _⟩ => rfl
  | ⟨1, _⟩ => rfl
  | ⟨2, _⟩ => rfl

/-- The sum from zero of a block [a, b, c] along its middle axis, at (i, k), is the sum over j of the block at
    (i, j, k). -/
theorem midSum_apply (P : FVec Ideal ⟨3, ![a, b, c]⟩ .f32) (h : (⟨3, ![a, b, c]⟩ : Shape).Reduces [1] ⟨2, ![a, c]⟩)
    (hφ : FKind.Formats .f32) (hacc : (0x00000000#32 : BitVec 32) = FKind.add.neutral .f32 hφ) (i : Fin a) (k : Fin c) :
    multiReduction .add [1] ⟨2, ![a, c]⟩ P 0x00000000#32 h hφ hacc (ix2 i k) = ∑ j : Fin b, P (ix3 i j k) := by
  rw [Ideal.multiReduction_add_single]
  exact Finset.sum_congr rfl fun j _ => congrArg P (lift_mid h i k j)

/-- The maximum from −∞ of a block [a, b, c] along its middle axis, at (i, k), is the running maximum from −∞ over j
    of the block at (i, j, k). -/
theorem midMax_apply (S : FVec Ideal ⟨3, ![a, b, c]⟩ .f32) (h : (⟨3, ![a, b, c]⟩ : Shape).Reduces [1] ⟨2, ![a, c]⟩)
    (hφ : FKind.Formats .f32) (hacc : (0xFF800000#32 : BitVec 32) = FKind.maximumf.neutral .f32 hφ) (i : Fin a) (k : Fin c) :
    multiReduction .maximumf [1] ⟨2, ![a, c]⟩ S 0xFF800000#32 h hφ hacc (ix2 i k)
      = (Finset.univ : Finset (Fin b)).fold max (Ideal.ofBits .f32 0xFF800000#32) fun j => S (ix3 i j k) := by
  rw [Ideal.multiReduction_maximumf_single]
  show (Finset.univ : Finset (Fin b)).fold max (Ideal.ofBits .f32 0xFF800000#32) (fun j : Fin b => S (h.lift (ix2 i k) j)) = _
  exact congrArg (fun f : Fin b → EReal => (Finset.univ : Finset (Fin b)).fold max (Ideal.ofBits .f32 0xFF800000#32) f)
    (funext fun j => congrArg S (lift_mid h i k j))

end Cert.LibMidAxis

end
-- ==== Proof.KernelBlock.lean ====
/-
  What the kernel body computes from one staged block.

  A block holds the 128 columns w of one batch entry, laid out [1, c, h, w].  The body moves the width first
  ([w, h, c]), forms for every w the Gram matrix of the heights on the matrix unit, takes the maximum and the sum of
  exponentials along the query height (the MIDDLE axis of [w, h, k]), divides, multiplies by the block again and
  moves the axes back.  Narrowing to sixteen bits before each product is the identity on the extended reals.  Read
  at (c, h, w), the stored block is attention of column w of the staged block at (c, h).
-/
import proofs.«150434_j76020921139498_1_alg».proof.Proof.Gen.KernelIdeal.Skeleton
import proofs.«150434_j76020921139498_1_alg».proof.Proof.ColumnAttention
import proofs.«150434_j76020921139498_1_alg».proof.Proof.LibBatchLayout
import proofs.«150434_j76020921139498_1_alg».proof.Proof.LibMidAxis
import Idealize.ShloMosaic.Lib.ValueLayout
import Idealize.ShloMosaic.Lib.Pipeline.Value
import Idealize.ShloMosaic.Lib.ValueIdx
import Idealize.ShloMosaic.PureOps.Ideal.Laws

noncomputable section

namespace Cert.KernelBlock

open Cert.KernelIdeal Cert.KernelIdeal.Gen Idealize.ShloMosaic Idealize.ShloMosaic.ValueIdx
open Cert.ColumnAttention Cert.LibBatchLayout Cert.LibMidAxis

/-- Column w of a staged block. -/
def blockColumn (v0 : Vec Ideal S1x64x128x128 .f32) (w : Fin 128) : Col := fun c h => v0 (ix4 (0 : Fin 1) c h w)

/-- The block with the width first and the features last, narrowed. -/
def cols (v0 : Vec Ideal S1x64x128x128 .f32) : FVec Ideal S128x128x64 .bf16 :=
  truncf .bf16 (transpose S128x128x64 [2, 1, 0] (shapeCast S64x128x128 v0 shapeCasts_S1x64x128x128_S64x128x128)
    transposes_S64x128x128_p2_1_0_S128x128x64) bitsLt_bf16_f32

theorem cols_apply (v0 : Vec Ideal S1x64x128x128 .f32) (w h : Fin 128) (c : Fin 64) :
    cols v0 (ix3 w h c) = blockColumn v0 w c h := by
  unfold cols
  show transpose S128x128x64 [2, 1, 0] (shapeCast S64x128x128 v0 shapeCasts_S1x64x128x128_S64x128x128)
    transposes_S64x128x128_p2_1_0_S128x128x64 (ix3 w h c) = _
  rw [transpose_apply [2, 1, 0] _ transposes_S64x128x128_p2_1_0_S128x128x64 (ix3 w h c) (ix3 c h w)
    (fun b => match b with | ⟨0, _⟩ => rfl | ⟨1, _⟩ => rfl | ⟨2, _⟩ => rfl)]
  exact shapeCast_1abc_abc_apply v0 _ c h w

/-- The Gram matrices of the heights, one per width. -/
def gram (v0 : Vec Ideal S1x64x128x128 .f32) : FVec Ideal S128x128x128 .f32 :=
  matmul dot_S128x128x64_S128x128x64_S128x128x128_2_2_1_1_0_0 none (cols v0) (cols v0)
    (constant S128x128x128 .f32 0x00000000#32)

theorem gram_apply (v0 : Vec Ideal S1x64x128x128 .f32) (w h k : Fin 128) :
    gram v0 (ix3 w h k) = score (blockColumn v0 w) h k := by
  unfold gram
  refine (matmul_batch_nt_apply dot_S128x128x64_S128x128x64_S128x128x128_2_2_1_1_0_0_wf none (cols v0) (cols v0)
    w h k).trans ?_
  unfold score
  exact Finset.sum_congr rfl fun c _ => by rw [cols_apply, cols_apply]

/-- The largest score of every key, clamped below by −∞. -/
def top (v0 : Vec Ideal S1x64x128x128 .f32) : FVec Ideal S128x128 .f32 :=
  maximumf (broadcast S128x128 (Scalar.ofBits .f32 0xFF800000#32))
    (multiReduction .maximumf [1] S128x128 (gram v0) 0xFF800000#32 reduces_S128x128x128_S128x128 (.inl rfl) rfl)

theorem top_apply (v0 : Vec Ideal S1x64x128x128 .f32) (w k : Fin 128) :
    top v0 (ix2 w k) = peak (blockColumn v0 w) k := by
  unfold top
  rw [maximumf_apply]
  refine (congrArg (max _) (midMax_apply (gram v0) reduces_S128x128x128_S128x128 (.inl rfl) rfl w k)).trans ?_
  unfold peak
  exact congrArg (fun f : Fin 128 → EReal => max negInf ((Finset.univ : Finset (Fin 128)).fold max negInf f))
    (funext fun h => gram_apply v0 w h k)

/-- The unnormalised weights. -/
def wts (v0 : Vec Ideal S1x64x128x128 .f32) : FVec Ideal S128x128x128 .f32 :=
  exp (subf (gram v0) (broadcastTo S128x128x128 (shapeCast S128x1x128 (top v0) shapeCasts_S128x128_S128x1x128)
    broadcasts_S128x1x128_S128x128x128))

theorem wts_apply (v0 : Vec Ideal S1x64x128x128 .f32) (w h k : Fin 128) :
    wts v0 (ix3 w h k) = weight (blockColumn v0 w) h k := by
  unfold wts
  rw [exp_apply, subf_apply, keepMid_apply, gram_apply, top_apply]
  rfl

/-- The normalisers. -/
def tot (v0 : Vec Ideal S1x64x128x128 .f32) : FVec Ideal S128x128 .f32 :=
  multiReduction .add [1] S128x128 (wts v0) 0x00000000#32 reduces_S128x128x128_S128x128 (.inl rfl) rfl

theorem tot_apply (v0 : Vec Ideal S1x64x128x128 .f32) (w k : Fin 128) :
    tot v0 (ix2 w k) = mass (blockColumn v0 w) k := by
  unfold tot mass
  refine (midSum_apply (wts v0) reduces_S128x128x128_S128x128 (.inl rfl) rfl w k).trans ?_
  exact Finset.sum_congr rfl fun h _ => wts_apply v0 w h k

/-- The normalised weights, narrowed. -/
def shares (v0 : Vec Ideal S1x64x128x128 .f32) : FVec Ideal S128x128x128 .bf16 :=
  truncf .bf16 (divf (wts v0) (broadcastTo S128x128x128 (shapeCast S128x1x128 (tot v0) shapeCasts_S128x128_S128x1x128)
    broadcasts_S128x1x128_S128x128x128)) bitsLt_bf16_f32

theorem shares_apply (v0 : Vec Ideal S1x64x128x128 .f32) (w h k : Fin 128) :
    shares v0 (ix3 w h k) = Ideal.div (weight (blockColumn v0 w) h k) (mass (blockColumn v0 w) k) := by
  unfold shares
  show divf (wts v0) (broadcastTo S128x128x128 (shapeCast S128x1x128 (tot v0) shapeCasts_S128x128_S128x1x128)
    broadcasts_S128x1x128_S128x128x128) (ix3 w h k) = _
  rw [divf_apply, keepMid_apply, wts_apply, tot_apply]

/-- The weighted heights, one product per width. -/
def mixed (v0 : Vec Ideal S1x64x128x128 .f32) : FVec Ideal S128x128x64 .f32 :=
  matmul dot_S128x128x128_S128x128x64_S128x128x64_2_1_1_2_0_0 none (shares v0) (cols v0)
    (constant S128x128x64 .f32 0x00000000#32)

theorem mixed_apply (v0 : Vec Ideal S1x64x128x128 .f32) (w h : Fin 128) (c : Fin 64) :
    mixed v0 (ix3 w h c) = attn (blockColumn v0 w) c h := by
  unfold mixed
  refine (matmul_batch_nn_apply dot_S128x128x128_S128x128x64_S128x128x64_2_1_1_2_0_0_wf none (shares v0) (cols v0)
    w h c).trans ?_
  unfold attn
  exact Finset.sum_congr rfl fun k _ => by rw [shares_apply, cols_apply]

/-- The stored value is the weighted heights with the axes moved back. -/
theorem payload_eq (v0 : Vec Ideal S1x64x128x128 .f32) :
    k0_pay1 v0 = shapeCast S1x64x128x128 (transpose S64x128x128 [2, 1, 0] (mixed v0)
      transposes_S128x128x64_p2_1_0_S64x128x128) shapeCasts_S64x128x128_S1x64x128x128 := rfl

/-- The stored block at (c, h, w) is attention of column w of the staged block at (c, h). -/
theorem payload_apply (v0 : Vec Ideal S1x64x128x128 .f32) (u : Fin 1) (c : Fin 64) (h w : Fin 128) :
    k0_pay1 v0 (ix4 u c h w) = attn (blockColumn v0 w) c h := by
  rw [payload_eq, shapeCast_abc_1abc_apply,
    transpose_apply [2, 1, 0] _ transposes_S128x128x64_p2_1_0_S64x128x128 (ix3 c h w) (ix3 w h c)
      (fun b => match b with | ⟨0, _⟩ => rfl | ⟨1, _⟩ => rfl | ⟨2, _⟩ => rfl)]
  exact mixed_apply v0 w h c

end Cert.KernelBlock

end
-- ==== Proof.KernelArray.lean ====
/-
  From the blocks to the whole array.

  The grid has 8 × 2 points.  Point (b, s) stages the block of batch entry b and widths 128·s … 128·s + 127 of the
  input, and writes back the block at the same place of the output.  Entry (c, h, w) of the block written back is
  attention of column w of the staged block, which is column (b, 128·s + w) of the input: the block at that place
  of the result array.  The sixteen blocks cover the output, so after the run the output is the result array.
-/
import proofs.«150434_j76020921139498_1_alg».proof.Proof.Gen.KernelIdeal.Value
import proofs.«150434_j76020921139498_1_alg».proof.Proof.KernelBlock

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)
open Cert.ColumnAttention Cert.KernelBlock

/-! ## One block against the array, over literal index types -/

/-- The place in the array of entry y of the block of batch entry q and width tile s. -/
def place (q : Fin 8) (s : Fin 2) (y : S1x64x128x128.Idx) : S8x64x128x256.Idx :=
  ix4 q (y 1) (y 2) ⟨s.val * 128 + (y 3).val, by
    have h3 : (y 3).val < 128 := (y 3).isLt
    have hs : s.val < 2 := s.isLt
    omega⟩

/-- If a staged block holds the array's entries at their places, the block the body stores holds the result array's. -/
theorem stored_eq_result (x : FVec Ideal S8x64x128x256 .f32) (v0 : Vec Ideal S1x64x128x128 .f32) (q : Fin 8) (s : Fin 2)
    (hv : ∀ y : S1x64x128x128.Idx, v0 y = x (place q s y)) (j : S1x64x128x128.Idx) :
    k0_pay1 v0 j = result x (place q s j) := by
  obtain ⟨u, c, h, w, rfl⟩ : ∃ (u : Fin 1) (c : Fin 64) (h w : Fin 128), j = ix4 u c h w :=
    ⟨j 0, j 1, j 2, j 3, eq_ix4 j⟩
  rw [payload_apply]
  show _ = attn (column x q ⟨s.val * 128 + w.val, _⟩) c h
  refine congrArg (fun col : Col => attn col c h) (funext fun c' => funext fun h' => ?_)
  exact hv (ix4 0 c' h' w)

/-! ## The grid -/

variable (m : (ℓ : Loc nD τ sig) → Buf (Elt Ideal) ℓ) (ρ : Dev nD → PrngReg)

theorem zeroOffsets : (![0, 0, 0, 0] : Fin 4 → Nat) = fun _ => 0 := funext fun a => by fin_cases a <;> rfl

/-- The two index maps, decided over the sixteen points: both windows sit at block (b, 0, 0, s). -/
theorem blockIndex : ∀ t : Fin cfg0.N, win0_0.index t (0 : Fin 4) = win0_1.index t (0 : Fin 4)
    ∧ win0_0.index t (1 : Fin 4) = 0 ∧ win0_0.index t (2 : Fin 4) = 0
    ∧ win0_0.index t (3 : Fin 4) = win0_1.index t (3 : Fin 4)
    ∧ win0_1.index t (1 : Fin 4) = 0 ∧ win0_1.index t (2 : Fin 4) = 0
    ∧ win0_1.index t (0 : Fin 4) ≤ 7 ∧ win0_1.index t (3 : Fin 4) ≤ 1 :=
  (by decide +kernel : ∀ t : Fin grid0.N, _)

/-- Every block (b, 0, 0, s) is some point's. -/
theorem blockOnto : ∀ (q : Fin 8) (s : Fin 2), ∃ t : Fin cfg0.N, win0_1.index t = ![q.val, 0, 0, s.val] :=
  (by decide +kernel : ∀ (q : Fin 8) (s : Fin 2), ∃ t : Fin grid0.N, win0_1.index t = ![q.val, 0, 0, s.val])

/-- What point t writes back is block t of the result array of the input as the region finds it. -/
theorem flushed_eq (c : Dev nD) (t : Fin cfg0.N) :
    (dats m 0 c).flushed 1 t = ((cfg0.win 1).blk t).view.read (Elt Ideal) (result (V m c main_arg0)) := by
  rw [Cert.KernelIdeal.Value.flushed1]
  unfold out0_1
  rw [View.canon_unit_zero zeroOffsets]
  simp only [View.ld_unit_zero (S := S1x64x128x128) zeroOffsets]
  obtain ⟨e0, e1, e2, e3, e4, e5, e6, e7⟩ := blockIndex t
  funext j
  show k0_pay1 (iblk m c 0 t) j = result (V m c main_arg0) (((cfg0.win 1).blk t).view.emb j)
  have hout : ((cfg0.win 1).blk t).view.emb j
      = place ⟨win0_1.index t (0 : Fin 4), by omega⟩ ⟨win0_1.index t (3 : Fin 4), by omega⟩ j := by
    funext a; apply Fin.ext
    match a with
    | ⟨0, _⟩ => show win0_1.index t (0 : Fin 4) * 1 + 1 * (j 0).val = win0_1.index t (0 : Fin 4); have hj : (j 0).val < 1 := (j 0).isLt; omega
    | ⟨1, _⟩ => show win0_1.index t (1 : Fin 4) * 64 + 1 * (j 1).val = (j 1).val; omega
    | ⟨2, _⟩ => show win0_1.index t (2 : Fin 4) * 128 + 1 * (j 2).val = (j 2).val; omega
    | ⟨3, _⟩ => show win0_1.index t (3 : Fin 4) * 128 + 1 * (j 3).val = win0_1.index t (3 : Fin 4) * 128 + (j 3).val; omega
  refine (stored_eq_result (V m c main_arg0) (iblk m c 0 t) ⟨win0_1.index t (0 : Fin 4), by omega⟩
    ⟨win0_1.index t (3 : Fin 4), by omega⟩ (fun y => ?_) j).trans (congrArg (result (V m c main_arg0)) hout.symm)
  show V m c main_arg0 (((cfg0.win 0).blk t).view.emb y) = V m c main_arg0 (place _ _ y)
  refine congrArg (V m c main_arg0) ?_
  funext a; apply Fin.ext
  match a with
  | ⟨0, _⟩ => show win0_0.index t (0 : Fin 4) * 1 + 1 * (y 0).val = win0_1.index t (0 : Fin 4); have hy : (y 0).val < 1 := (y 0).isLt; omega
  | ⟨1, _⟩ => show win0_0.index t (1 : Fin 4) * 64 + 1 * (y 1).val = (y 1).val; omega
  | ⟨2, _⟩ => show win0_0.index t (2 : Fin 4) * 128 + 1 * (y 2).val = (y 2).val; omega
  | ⟨3, _⟩ => show win0_0.index t (3 : Fin 4) * 128 + 1 * (y 3).val = win0_1.index t (3 : Fin 4) * 128 + (y 3).val; omega

/-- An index of the array is in point t's block iff each coordinate is in the block's range on its axis. -/
theorem mem_block (t : Fin cfg0.N) (i : S8x64x128x256.Idx) :
    i ∈ ((cfg0.win 1).blk t).view.set ↔ ∀ a : Fin 4, win0_1.index t a * S1x64x128x128.size a ≤ (i a).val
      ∧ (i a).val < win0_1.index t a * S1x64x128x128.size a + S1x64x128x128.size a := by
  show i ∈ ((View.whole main_v0).slice (win0_1.rect t)).set ↔ _
  rw [View.set_slice_whole, Rect.mem_set_unit]
  exact Iff.rfl

/-- Every index of the output is in the block of the point (b, w / 128). -/
theorem covered (i : S8x64x128x256.Idx) :
    ∃ t : Fin cfg0.N, (cfg0.win 1).flush t = true ∧ i ∈ ((cfg0.win 1).blk t).view.set := by
  have hi0 : (i 0).val < 8 := (i 0).isLt
  have hi1 : (i 1).val < 64 := (i 1).isLt
  have hi2 : (i 2).val < 128 := (i 2).isLt
  have hi3 : (i 3).val < 256 := (i 3).isLt
  obtain ⟨t, ht⟩ := blockOnto ⟨(i 0).val, hi0⟩ ⟨(i 3).val / 128, by omega⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = (i 3).val / 128 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 64 ≤ (i 1).val ∧ (i 1).val < win0_1.index t (1 : Fin 4) * 64 + 64; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- After the run the output array is the result array of the input. -/
theorem final (c : Dev nD) : (dats m 0 c).arrAt 1 cfg0.N = result (m ((c : Thread nD τ).loc main_arg0)) :=
  (dats m 0 c).arrAt_eq_of_cover 1 (result (V m c main_arg0)) (fun t _ => flushed_eq m c t) covered

/-- Every weakly fair execution of the kernel program ends with the output at the result array of the input, the input
    unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelArray

end
-- ==== Proof.lean ====
/-
  Attention along the height of every column: the kernel against its reference.

  The input x has axes batch b, feature c, height h, width w.  Fixing (b, w) leaves a column of 64 features at 128
  heights, and every column is treated alone.  With

    score(h, k)  = Σ_c x(c, h) · x(c, k),
    peak(k)      = max(−∞, max_h score(h, k)),
    weight(h, k) = exp(score(h, k) − peak(k)),
    mass(k)      = Σ_h weight(h, k),

  the result at (b, c, h, w) is Σ_k (weight(h, k) / mass(k)) · x(c, k) of the column (b, w): a softmax normalised over
  the query height h for every key k (Proof/ColumnAttention.lean).

  The reference computes this on whole arrays: it moves the feature axis last, forms the scores of all columns with
  one batched product, reduces over the query height, divides, forms the second batched product and moves the axes
  back.  Stage by stage it is the quantity above (Proof/ReferenceColumns.lean).

  The kernel walks a grid of 8 × 2 points.  Point (b, s) stages the 128 columns b, 128·s … 128·s + 127 as one block,
  computes the same stages inside the block — the products on the matrix unit after narrowing to sixteen bits,
  which is the identity on the extended reals, the maximum and the sum along the middle axis of [w, h, k] — and
  writes the block back at the same place (Proof/KernelBlock.lean).  The sixteen blocks cover the output
  (Proof/KernelArray.lean).

  Both sides perform the same operations on the same numbers; only the order of the finite sums and of the running
  maximum differs, and those are sums and maxima of a commutative monoid and a linear order.  So the two results are
  equal on all extended reals, and the finiteness of the input is not used.
-/
import proofs.«150434_j76020921139498_1_alg».proof.Defs
import proofs.«150434_j76020921139498_1_alg».proof.Proof.Gen.Kernel
import proofs.«150434_j76020921139498_1_alg».proof.Proof.Gen.Kernel.Skeleton
import proofs.«150434_j76020921139498_1_alg».proof.Proof.Gen.Kernel.Launch
import proofs.«150434_j76020921139498_1_alg».proof.Proof.Gen.Kernel.Points
import proofs.«150434_j76020921139498_1_alg».proof.Proof.Gen.Kernel.Frame
import proofs.«150434_j76020921139498_1_alg».proof.Proof.Gen.KernelIdeal
import proofs.«150434_j76020921139498_1_alg».proof.Proof.Gen.KernelIdeal.Skeleton
import proofs.«150434_j76020921139498_1_alg».proof.Proof.Gen.KernelIdeal.Launch
import proofs.«150434_j76020921139498_1_alg».proof.Proof.Gen.KernelIdeal.Points
import proofs.«150434_j76020921139498_1_alg».proof.Proof.Gen.KernelIdeal.Frame
import proofs.«150434_j76020921139498_1_alg».proof.Proof.Gen.ReferenceIdeal
import proofs.«150434_j76020921139498_1_alg».proof.Proof.Gen.Pre_finite_inputs
import proofs.«150434_j76020921139498_1_alg».proof.Proof.Gen.KernelIdeal.Value
import proofs.«150434_j76020921139498_1_alg».proof.Proof.Gen.ReferenceIdeal.Run
import proofs.«150434_j76020921139498_1_alg».proof.Proof.Gen.ReferenceIdeal.Read
import proofs.«150434_j76020921139498_1_alg».proof.Proof.ReferenceColumns
import proofs.«150434_j76020921139498_1_alg».proof.Proof.KernelArray
import Idealize.ShloMosaic.Adequacy
import Idealize.ShloMosaic.Init

noncomputable section

namespace Cert.Proof

open Idealize.ShloMosaic Idealize.SL.Sem

/-- The word-level kernel runs and leaves its input as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its input as it was: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From equal inputs the kernel's output and the reference's result are both the result array of the input. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceColumns.reference_eq_result, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
